-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S512x512 : Shape := ⟨2, ![512, 512]⟩
abbrev S512 : Shape := ⟨1, ![512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x512 .f32) (main_arg8 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S8x2048x512 .f32) (main_arg1 : FVec F S8x2048x512 .f32) (main_arg2 : FVec F S8x2048x512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  let main_v9 : FVec F S8x2048x512 .f32 := Host.absf main_arg2
  let main_cst_2 : FVec F S_ .f32 := constant S_ .f32 0x7F800000#32
  let main_v10 : FVec F S8x2048x512 .f32 := broadcastInDim S8x2048x512 ![] bcast_S_S8x2048x512 main_cst_2
  let main_v11 : IVec S8x2048x512 1 := cmpf .olt main_v9 main_v10
  let main_c_3 : IVec S_ 1 := constantI S_ 1 1#1
  let main_v12 : IVec S_ 1 := (fun x v => Host.reduce IntOp.andi x v reducesTo_S8x2048x512_S_d0_1_2 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_v13 main_v16
-- ==== Kernel.lean ====
abbrev S8x2048x512 : Shape := ⟨3, ![8, 2048, 512]⟩
abbrev S512x512 : Shape := ⟨2, ![512, 512]⟩
abbrev S512 : Shape := ⟨1, ![512]⟩
abbrev S1x512 : Shape := ⟨2, ![1, 512]⟩
abbrev S1x512x512 : Shape := ⟨3, ![1, 512, 512]⟩
abbrev S1x2048x512 : Shape := ⟨3, ![1, 2048, 512]⟩
abbrev S2048x512 : Shape := ⟨2, ![2048, 512]⟩
abbrev S512x2048 : Shape := ⟨2, ![512, 2048]⟩
abbrev S512x1 : Shape := ⟨2, ![512, 1]⟩

abbrev nBuf : Space → Nat
  | .hbm => 13
  | .vmem => 16
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S8x2048x512, .f32⟩
  | .local _ .vmem, ⟨0, _⟩ => ⟨S1x512x512, .f32⟩
  | .local _ .vmem, ⟨1, _⟩ => ⟨S1x512x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S512x512, .f32⟩
  | .local _ .vmem, ⟨7, _⟩ => ⟨S1x512, .f32⟩
  | .local _ .vmem, ⟨8, _⟩ => ⟨S512x512, .f32⟩
  | .local _ .vmem, ⟨9, _⟩ => ⟨S1x512, .f32⟩
  | .local _ .vmem, ⟨10, _⟩ => ⟨S512x512, .f32⟩
  | .local _ .vmem, ⟨11, _⟩ => ⟨S1x512, .f32⟩
  | .local _ .vmem, ⟨12, _⟩ => ⟨S1x512x512, .f32⟩
  | .local _ .vmem, ⟨13, _⟩ => ⟨S1x512x512, .f32⟩
  | .local _ .vmem, ⟨14, _⟩ => ⟨S2048x512, .bf16⟩
  | .local _ .vmem, ⟨15, _⟩ => ⟨S2048x512, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S512_S1x512 : S512.ShapeCasts S1x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  broadcasts_S1x512_S512x512 : S1x512.Broadcasts S512x512
  reduces_S512x2048_S512 : S512x2048.Reduces [1] S512
  shapeCasts_S512_S512x1 : S512.ShapeCasts S512x1
  broadcasts_S512x1_S512x2048 : S512x1.Broadcasts S512x2048
  shapeCasts_S512x512_S1x512x512 : S512x512.ShapeCasts S1x512x512
  dot_S2048x512_S512x512_S2048x512_1_0_0_1_n_n_wf : DotDims.WF S2048x512 S512x512 S2048x512 [1] [0] [0] [1] [] []
  dot_S512x512_S512x512_S512x512_1_0_0_1_n_n_wf : DotDims.WF S512x512 S512x512 S512x512 [1] [0] [0] [1] [] []
  dot_S512x512_S2048x512_S512x2048_1_1_0_0_n_n_wf : DotDims.WF S512x512 S2048x512 S512x2048 [1] [1] [0] [0] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x2048x512.size a
  hwx0_0 : ∀ i : grid0.Coords, EltTy.bits .f32 = 32 ∨ (Rect.block (s := S8x2048x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x512.size a
  hwx0_1 : ∀ i : grid0.Coords, EltTy.bits .f32 = 32 ∨ (Rect.block (s := S8x2048x512) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x512.size a
  hwx0_2 : ∀ i : grid0.Coords, EltTy.bits .f32 = 32 ∨ (Rect.block (s := S8x2048x512) S1x2048x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x512.size a ≤ S8x2048x512.size a
  hwx0_9 : ∀ i : grid0.Coords, EltTy.bits .f32 = 32 ∨ (Rect.block (s := S8x2048x512) S1x512x512.size (cc0_transform_9 i) (hinb0_9 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x512x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S512x512 : Shape := ⟨2, ![512, 512]⟩
abbrev S512 : Shape := ⟨1, ![512]⟩
abbrev S1x1x512 : Shape := ⟨3, ![1, 1, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S8x2048x512, .f32⟩
  | .hbm, ⟨10, _⟩ => ⟨S1x1x512, .f32⟩
  | .hbm, ⟨11, _⟩ => ⟨S8x2048x512, .f32⟩
  | .hbm, ⟨12, _⟩ => ⟨S8x2048x512, .f32⟩
  | .hbm, ⟨13, _⟩ => ⟨S8x2048x512, .f32⟩
  | .hbm, ⟨14, _⟩ => ⟨S1x1x512, .f32⟩
  | .hbm, ⟨15, _⟩ => ⟨S8x2048x512, .f32⟩
  | .hbm, ⟨16, _⟩ => ⟨S8x2048x512, .f32⟩
  | .hbm, ⟨17, _⟩ => ⟨S8x2048x512, .f32⟩
  | .hbm, ⟨18, _⟩ => ⟨S1x1x512, .f32⟩
  | .hbm, ⟨19, _⟩ => ⟨S8x2048x512, .f32⟩
  | .hbm, ⟨20, _⟩ => ⟨S8x2048x512, .f32⟩
  | .hbm, ⟨21, _⟩ => ⟨S8x2048x2048, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048, .f32⟩
  | .hbm, ⟨27, _⟩ => ⟨S_, .f32⟩
  | .hbm, ⟨28, _⟩ => ⟨S8x2048, .f32⟩
  | .hbm, ⟨29, _⟩ => ⟨S8x2048, .f32⟩
  | .hbm, ⟨30, _⟩ => ⟨S8x2048x1, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S8x2048x2048, .f32⟩
  | .hbm, ⟨38, _⟩ => ⟨S8x2048x2048, .f32⟩
  | .hbm, ⟨39, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S512x512_S8x2048x512_2_0_01_1_n_n_wf : DotDims.WF S8x2048x512 S512x512 S8x2048x512 [2] [0] [0, 1] [1] [] []
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S512x512_S8x2048x512_2_0_01_1_n_n : DotDims S8x2048x512 S512x512 S8x2048x512 where
  lhsContracting := [2]
  rhsContracting := [0]
  lhsNonContracting := [0, 1]
  rhsNonContracting := [1]
  lhsBatch := []
  rhsBatch := []
  wf := dot_S8x2048x512_S512x512_S8x2048x512_2_0_01_1_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.Pieces.lean ====
/-
  What each of the kernel body's two control cases leaves behind, as values.

  The body runs in one of two cases. At the first query tile of a batch it projects that batch's keys and values and
  stores them whole into the two carried arrays, then computes the tile's attention output from the query tile and the
  projections it has just stored. At every other tile it stores nothing into the carried arrays and computes the
  attention output from the query tile and whatever the carried arrays hold. Each store covers its buffer with one
  piece, so what a buffer ends holding is that piece's payload, a pure function of the blocks the body loaded; a load of
  a carried array after its store reads the stored payload back.
-/
import proofs.«106865_j1803886264320_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a batch: the first carried array ends holding the key projection of the loaded blocks. -/
theorem keys_A (c : Dev nD) (i : grid0.Coords) (arg2 : Memref sig .tc .vmem S1x512x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S1x512x512 .f32) (harg11 : arg11.IsWhole) (arg12 : Memref sig .tc .vmem S2048x512 .bf16) (harg12 : arg12.IsWhole) (arg13 : Memref sig .tc .vmem S2048x512 .bf16) (harg13 : arg13.IsWhole) (hc0 : cond0_0 i)
    (x0 : Vec F S1x512x512 .f32) (x1 : Vec F S1x2048x512 .f32) (x2 : Vec F S1x2048x512 .f32) (x3 : Vec F S512x512 .f32) (x4 : Vec F S1x512 .f32) (x5 : Vec F S512x512 .f32) (x6 : Vec F S1x512 .f32) (x7 : Vec F S512x512 .f32) (x8 : Vec F S1x512 .f32) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay1 x1 x5 x6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S1x512x512) hz3, View.ld_unit_zero (S := S1x2048x512) hz3, View.ld_unit_zero (S := S512x512) hz2, View.ld_unit_zero (S := S1x512) hz2, View.ld_unit_zero (S := S2048x512) hz2]

/-- First tile of a batch: the second carried array ends holding the value projection of the loaded blocks. -/
theorem vals_A (c : Dev nD) (i : grid0.Coords) (arg2 : Memref sig .tc .vmem S1x512x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S1x512x512 .f32) (harg11 : arg11.IsWhole) (arg12 : Memref sig .tc .vmem S2048x512 .bf16) (harg12 : arg12.IsWhole) (arg13 : Memref sig .tc .vmem S2048x512 .bf16) (harg13 : arg13.IsWhole) (hc0 : cond0_0 i)
    (x0 : Vec F S1x512x512 .f32) (x1 : Vec F S1x2048x512 .f32) (x2 : Vec F S1x2048x512 .f32) (x3 : Vec F S512x512 .f32) (x4 : Vec F S1x512 .f32) (x5 : Vec F S512x512 .f32) (x6 : Vec F S1x512 .f32) (x7 : Vec F S512x512 .f32) (x8 : Vec F S1x512 .f32) :
    sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay2 x2 x7 x8 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S1x512x512) hz3, View.ld_unit_zero (S := S1x2048x512) hz3, View.ld_unit_zero (S := S512x512) hz2, View.ld_unit_zero (S := S1x512) hz2, View.ld_unit_zero (S := S2048x512) hz2]

/-- First tile of a batch: the output block is the attention payload of the query tile over the projections just stored. -/
theorem out_A (c : Dev nD) (i : grid0.Coords) (arg2 : Memref sig .tc .vmem S1x512x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S1x512x512 .f32) (harg11 : arg11.IsWhole) (arg12 : Memref sig .tc .vmem S2048x512 .bf16) (harg12 : arg12.IsWhole) (arg13 : Memref sig .tc .vmem S2048x512 .bf16) (harg13 : arg13.IsWhole) (hc0 : cond0_0 i)
    (x0 : Vec F S1x512x512 .f32) (x1 : Vec F S1x2048x512 .f32) (x2 : Vec F S1x2048x512 .f32) (x3 : Vec F S512x512 .f32) (x4 : Vec F S1x512 .f32) (x5 : Vec F S512x512 .f32) (x6 : Vec F S1x512 .f32) (x7 : Vec F S512x512 .f32) (x8 : Vec F S1x512 .f32) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay3 x0 x3 x4 (k0_pay1 x1 x5 x6) (k0_pay2 x2 x7 x8) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S1x512x512) hz3, View.ld_unit_zero (S := S1x2048x512) hz3, View.ld_unit_zero (S := S512x512) hz2, View.ld_unit_zero (S := S1x512) hz2, View.ld_unit_zero (S := S2048x512) hz2]
  rw [View.readCov_unit_zero (S := S2048x512) _ hz2, View.readCov_unit_zero (S := S2048x512) _ hz2]

/-- Any other tile: the output block is the attention payload of the query tile over what the carried arrays hold. -/
theorem out_B (c : Dev nD) (i : grid0.Coords) (arg2 : Memref sig .tc .vmem S1x512x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S1x512x512 .f32) (harg11 : arg11.IsWhole) (arg12 : Memref sig .tc .vmem S2048x512 .bf16) (harg12 : arg12.IsWhole) (arg13 : Memref sig .tc .vmem S2048x512 .bf16) (harg13 : arg13.IsWhole) (hc0 : ¬cond0_0 i)
    (x0 : Vec F S1x512x512 .f32) (x1 : Vec F S1x2048x512 .f32) (x2 : Vec F S1x2048x512 .f32) (x3 : Vec F S512x512 .f32) (x4 : Vec F S1x512 .f32) (x5 : Vec F S512x512 .f32) (x6 : Vec F S1x512 .f32) (x7 : Vec F S512x512 .f32) (x8 : Vec F S1x512 .f32) (xs0 : Vec F S2048x512 .bf16) (xs1 : Vec F S2048x512 .bf16) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 = k0_pay3 x0 x3 x4 xs0 xs1 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1)]
  unfold kernelRun0_B
  dsimp only
  rw [View.canon_unit_zero hz3]
  simp only [View.readAt_eq_ld, harg2.read_unread, harg3.read_unread, harg4.read_unread, harg5.read_unread, harg6.read_unread, harg7.read_unread, harg8.read_unread, harg9.read_unread, harg10.read_unread, harg12.read_unread, harg13.read_unread, View.ld_unit_zero (S := S1x512x512) hz3, View.ld_unit_zero (S := S1x2048x512) hz3, View.ld_unit_zero (S := S512x512) hz2, View.ld_unit_zero (S := S1x512) hz2, View.ld_unit_zero (S := S2048x512) hz2]

end Cert.KernelIdeal.Pieces

end
-- ==== Proof.Blocks.lean ====
/-
  The blocks the body loads at a grid point, read at an index of the argument arrays.

  The 32 grid points run batch-major: point `t` is query tile `t % 4` of batch `t / 4`. The query window's block at
  `t` is rows `512·(t % 4) … 512·(t % 4) + 511` of batch `t / 4`; the key and value windows' blocks are all 2048 rows
  of batch `t / 4`, the same block at the four points of a batch; the three weight windows and the three bias-row
  windows hold their whole arrays at every point. A block's coordinate inside its array is block index times block
  size plus the coordinate inside the block. The bias rows are the `[1, 512]` views of the `[512]` bias vectors that
  the host wrote before the call: entry `(0, h)` of the view is entry `h` of the vector.
-/
import proofs.«106865_j1803886264320_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The printed index maps over the grid: batch `t / 4`, tile `t % 4`; constant maps are zero. -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 3) = t.val / 4 ∧ win0_9.index t (1 : Fin 3) = t.val % 4 ∧ win0_9.index t (2 : Fin 3) = 0) :=
  (by decide +kernel : ∀ t : Fin grid0.N, _)

/-- The batch of a grid point. -/
def batch (t : Fin cfg0.N) : Fin 8 := ⟨t.val / 4, by have h := t.isLt; have hN : cfg0.N = 32 := N_0; omega⟩

/-- Row `r` of a point's query tile, as a row of the batch. -/
def qrow (t : Fin cfg0.N) (r : Fin 512) : Fin 2048 := ⟨512 * (t.val % 4) + r.val, by have := r.isLt; omega⟩

theorem batch_val (t : Fin cfg0.N) : (batch t).val = t.val / 4 := rfl
theorem qrow_val (t : Fin cfg0.N) (r : Fin 512) : (qrow t r).val = 512 * (t.val % 4) + r.val := rfl

/-- The query window's block: tile row `r`, feature `f` is the array's entry at batch `t / 4`, row `512·(t % 4) + r`. -/
theorem iblk0_apply (c : Dev nD) (t : Fin cfg0.N) (y : S1x512x512.Idx) :
    (iblk m c 0 t : Vec F S1x512x512 .f32) y = V m c main_arg0 (ix3 (batch t) (qrow t (y 1)) (y 2)) := by
  obtain ⟨⟨e0, e1, e2⟩, -⟩ := idx_facts t
  unfold iblk
  rw [View.read_apply]
  show V m c main_arg0 (((cfg0.win 0).blk t).view.emb y) = _
  refine congrArg (V m c main_arg0) ?_
  funext a; apply Fin.ext
  match a with
  | ⟨0, _⟩ => show win0_0.index t (0 : Fin 3) * 1 + 1 * (y 0).val = t.val / 4; have hy : (y 0).val < 1 := (y 0).isLt; omega
  | ⟨1, _⟩ => show win0_0.index t (1 : Fin 3) * 512 + 1 * (y 1).val = 512 * (t.val % 4) + (y 1).val; omega
  | ⟨2, _⟩ => show win0_0.index t (2 : Fin 3) * 512 + 1 * (y 2).val = (y 2).val; omega

/-- The key window's block: all rows of batch `t / 4`. -/
theorem iblk1_apply (c : Dev nD) (t : Fin cfg0.N) (y : S1x2048x512.Idx) :
    (iblk m c 1 t : Vec F S1x2048x512 .f32) y = V m c main_arg1 (ix3 (batch t) (y 1) (y 2)) := by
  obtain ⟨-, ⟨e0, e1, e2⟩, -⟩ := idx_facts t
  unfold iblk
  rw [View.read_apply]
  show V m c main_arg1 (((cfg0.win 1).blk t).view.emb y) = _
  refine congrArg (V m c main_arg1) ?_
  funext a; apply Fin.ext
  match a with
  | ⟨0, _⟩ => show win0_1.index t (0 : Fin 3) * 1 + 1 * (y 0).val = t.val / 4; have hy : (y 0).val < 1 := (y 0).isLt; omega
  | ⟨1, _⟩ => show win0_1.index t (1 : Fin 3) * 2048 + 1 * (y 1).val = (y 1).val; omega
  | ⟨2, _⟩ => show win0_1.index t (2 : Fin 3) * 512 + 1 * (y 2).val = (y 2).val; omega

/-- The value window's block: all rows of batch `t / 4`. -/
theorem iblk2_apply (c : Dev nD) (t : Fin cfg0.N) (y : S1x2048x512.Idx) :
    (iblk m c 2 t : Vec F S1x2048x512 .f32) y = V m c main_arg2 (ix3 (batch t) (y 1) (y 2)) := by
  obtain ⟨-, -, ⟨e0, e1, e2⟩, -⟩ := idx_facts t
  unfold iblk
  rw [View.read_apply]
  show V m c main_arg2 (((cfg0.win 2).blk t).view.emb y) = _
  refine congrArg (V m c main_arg2) ?_
  funext a; apply Fin.ext
  match a with
  | ⟨0, _⟩ => show win0_2.index t (0 : Fin 3) * 1 + 1 * (y 0).val = t.val / 4; have hy : (y 0).val < 1 := (y 0).isLt; omega
  | ⟨1, _⟩ => show win0_2.index t (1 : Fin 3) * 2048 + 1 * (y 1).val = (y 1).val; omega
  | ⟨2, _⟩ => show win0_2.index t (2 : Fin 3) * 512 + 1 * (y 2).val = (y 2).val; omega

/-- A weight window's block is its whole array (windows 3, 5, 7). -/
theorem iblk3_eq (c : Dev nD) (t : Fin cfg0.N) : (iblk m c 3 t : Vec F S512x512 .f32) = V m c main_arg3 := by
  obtain ⟨-, -, -, ⟨e0, e1⟩, -⟩ := idx_facts t
  funext y
  unfold iblk
  rw [View.read_apply]
  show V m c main_arg3 (((cfg0.win 3).blk t).view.emb y) = _
  refine congrArg (V m c main_arg3) ?_
  funext a; apply Fin.ext
  match a with
  | ⟨0, _⟩ => show win0_3.index t (0 : Fin 2) * 512 + 1 * (y 0).val = (y 0).val; omega
  | ⟨1, _⟩ => show win0_3.index t (1 : Fin 2) * 512 + 1 * (y 1).val = (y 1).val; omega

theorem iblk5_eq (c : Dev nD) (t : Fin cfg0.N) : (iblk m c 5 t : Vec F S512x512 .f32) = V m c main_arg5 := by
  obtain ⟨-, -, -, -, -, ⟨e0, e1⟩, -⟩ := idx_facts t
  funext y
  unfold iblk
  rw [View.read_apply]
  show V m c main_arg5 (((cfg0.win 5).blk t).view.emb y) = _
  refine congrArg (V m c main_arg5) ?_
  funext a; apply Fin.ext
  match a with
  | ⟨0, _⟩ => show win0_5.index t (0 : Fin 2) * 512 + 1 * (y 0).val = (y 0).val; omega
  | ⟨1, _⟩ => show win0_5.index t (1 : Fin 2) * 512 + 1 * (y 1).val = (y 1).val; omega

theorem iblk7_eq (c : Dev nD) (t : Fin cfg0.N) : (iblk m c 7 t : Vec F S512x512 .f32) = V m c main_arg7 := by
  obtain ⟨-, -, -, -, -, -, -, ⟨e0, e1⟩, -⟩ := idx_facts t
  funext y
  unfold iblk
  rw [View.read_apply]
  show V m c main_arg7 (((cfg0.win 7).blk t).view.emb y) = _
  refine congrArg (V m c main_arg7) ?_
  funext a; apply Fin.ext
  match a with
  | ⟨0, _⟩ => show win0_7.index t (0 : Fin 2) * 512 + 1 * (y 0).val = (y 0).val; omega
  | ⟨1, _⟩ => show win0_7.index t (1 : Fin 2) * 512 + 1 * (y 1).val = (y 1).val; omega

/-- A bias-row window's block is its whole `[1, 512]` array (windows 4, 6, 8). -/
theorem iblk4_eq (c : Dev nD) (t : Fin cfg0.N) : (iblk m c 4 t : Vec F S1x512 .f32) = V m c main_v0 := by
  obtain ⟨-, -, -, -, ⟨e0, e1⟩, -⟩ := idx_facts t
  funext y
  unfold iblk
  rw [View.read_apply]
  show V m c main_v0 (((cfg0.win 4).blk t).view.emb y) = _
  refine congrArg (V m c main_v0) ?_
  funext a; apply Fin.ext
  match a with
  | ⟨0, _⟩ => show win0_4.index t (0 : Fin 2) * 1 + 1 * (y 0).val = (y 0).val; omega
  | ⟨1, _⟩ => show win0_4.index t (1 : Fin 2) * 512 + 1 * (y 1).val = (y 1).val; omega

theorem iblk6_eq (c : Dev nD) (t : Fin cfg0.N) : (iblk m c 6 t : Vec F S1x512 .f32) = V m c main_v1 := by
  obtain ⟨-, -, -, -, -, -, ⟨e0, e1⟩, -⟩ := idx_facts t
  funext y
  unfold iblk
  rw [View.read_apply]
  show V m c main_v1 (((cfg0.win 6).blk t).view.emb y) = _
  refine congrArg (V m c main_v1) ?_
  funext a; apply Fin.ext
  match a with
  | ⟨0, _⟩ => show win0_6.index t (0 : Fin 2) * 1 + 1 * (y 0).val = (y 0).val; omega
  | ⟨1, _⟩ => show win0_6.index t (1 : Fin 2) * 512 + 1 * (y 1).val = (y 1).val; omega

theorem iblk8_eq (c : Dev nD) (t : Fin cfg0.N) : (iblk m c 8 t : Vec F S1x512 .f32) = V m c main_v2 := by
  obtain ⟨-, -, -, -, -, -, -, -, ⟨e0, e1⟩, -⟩ := idx_facts t
  funext y
  unfold iblk
  rw [View.read_apply]
  show V m c main_v2 (((cfg0.win 8).blk t).view.emb y) = _
  refine congrArg (V m c main_v2) ?_
  funext a; apply Fin.ext
  match a with
  | ⟨0, _⟩ => show win0_8.index t (0 : Fin 2) * 1 + 1 * (y 0).val = (y 0).val; omega
  | ⟨1, _⟩ => show win0_8.index t (1 : Fin 2) * 512 + 1 * (y 1).val = (y 1).val; omega

/-- A `[512]` vector viewed as the row `[1, 512]`: entry `(0, h)` is entry `h`. -/
theorem rowView_apply {α : Type} (x : S512.Idx → α) (u : Fin 1) (h : Fin 512) :
    shapeCast S1x512 x shapeCasts_S512_S1x512 (ix2 u h) = x (ix1 h) :=
  shapeCast_apply x shapeCasts_S512_S1x512 _ _ (by
    have hu : u.val = 0 := by omega
    rw [Shape.rowMajor_val_two, Shape.rowMajor_val_one]
    show h.val = u.val * 512 + h.val
    rw [hu, Nat.zero_mul, Nat.zero_add])

/-- The three bias rows as the region finds them: the host's `[1, 512]` views of the bias vectors. -/
theorem V_main_v0 (c : Dev nD) :
    (V m c main_v0 : S1x512.Idx → Elt F .f32) = shapeCast S1x512 (m ((c : Thread nD τ).loc main_arg4)) shapeCasts_S512_S1x512 := by
  dsimp only [V, hostOps0]; after_results; rfl

theorem V_main_v1 (c : Dev nD) :
    (V m c main_v1 : S1x512.Idx → Elt F .f32) = shapeCast S1x512 (m ((c : Thread nD τ).loc main_arg6)) shapeCasts_S512_S1x512 := by
  dsimp only [V, hostOps0]; after_results; rfl

theorem V_main_v2 (c : Dev nD) :
    (V m c main_v2 : S1x512.Idx → Elt F .f32) = shapeCast S1x512 (m ((c : Thread nD τ).loc main_arg8)) shapeCasts_S512_S1x512 := by
  dsimp only [V, hostOps0]; after_results; rfl

end Cert.KernelIdeal.Blocks

end
-- ==== Proof.Carried.lean ====
/-
  What the two carried arrays hold after each grid point, and hence what every point's output block is.

  At the first tile of a batch the body stores the key and value projections of the batch's blocks into the carried
  arrays; at the other three tiles it leaves them alone. The key and value windows show the same block at all four
  tiles of a batch, and the weight and bias windows never move. So after EVERY point the carried arrays hold the
  projections of that point's own key and value blocks — by induction on the point: a first tile resets them, any other
  tile inherits them from the point before, whose blocks are the same. Consequently the output block a point leaves is
  the attention payload of its query tile over the projections of its own key and value blocks, whichever case ran.
-/
import proofs.«106865_j1803886264320_2_alg».proof.Proof.Pieces
import proofs.«106865_j1803886264320_2_alg».proof.Proof.Blocks

noncomputable section

open Idealize.ShloMosaic Idealize.ShloMosaic.TcCoe Idealize.SL.Sem Idealize.ShloMosaic.ValueIdx

namespace Cert.KernelIdeal.Carried

open Cert.KernelIdeal Cert.KernelIdeal.Gen Cert.KernelIdeal.Pieces Cert.KernelIdeal.Blocks

variable {F : FTy → Type} [FloatOps F]
variable (m : (ℓ : Loc nD τ sig) → Buf (Elt F) ℓ)

/-- The key projection of a point's own blocks. -/
def keysAt (c : Dev nD) (t : Fin cfg0.N) : Vec F S2048x512 .bf16 :=
  k0_pay1 (iblk m c 1 t) (iblk m c 5 t) (iblk m c 6 t)

/-- The value projection of a point's own blocks. -/
def valsAt (c : Dev nD) (t : Fin cfg0.N) : Vec F S2048x512 .bf16 :=
  k0_pay2 (iblk m c 2 t) (iblk m c 7 t) (iblk m c 8 t)

/-- The point before `t`, for a `t` that is not a batch's first tile. -/
def prev (t : Fin cfg0.N) : Fin cfg0.N := ⟨t.val - 1, Nat.lt_of_le_of_lt (Nat.sub_le _ _) t.isLt⟩

theorem batch_prev (t : Fin cfg0.N) (h0 : ¬t.val % 4 = 0) : batch (prev t) = batch t :=
  Fin.ext (by show (t.val - 1) / 4 = t.val / 4; omega)

/-- Within a batch the key window shows the same block at a point and at the point before. -/
theorem iblk1_prev (c : Dev nD) (t : Fin cfg0.N) (h0 : ¬t.val % 4 = 0) :
    (iblk m c 1 (prev t) : Vec F S1x2048x512 .f32) = iblk m c 1 t := by
  funext y; rw [iblk1_apply, iblk1_apply, batch_prev t h0]

/-- … and so does the value window. -/
theorem iblk2_prev (c : Dev nD) (t : Fin cfg0.N) (h0 : ¬t.val % 4 = 0) :
    (iblk m c 2 (prev t) : Vec F S1x2048x512 .f32) = iblk m c 2 t := by
  funext y; rw [iblk2_apply, iblk2_apply, batch_prev t h0]

theorem keysAt_prev (c : Dev nD) (t : Fin cfg0.N) (h0 : ¬t.val % 4 = 0) : keysAt m c (prev t) = keysAt m c t := by
  unfold keysAt; rw [iblk1_prev m c t h0, iblk5_eq, iblk5_eq, iblk6_eq, iblk6_eq]

theorem valsAt_prev (c : Dev nD) (t : Fin cfg0.N) (h0 : ¬t.val % 4 = 0) : valsAt m c (prev t) = valsAt m c t := by
  unfold valsAt; rw [iblk2_prev m c t h0, iblk7_eq, iblk7_eq, iblk8_eq, iblk8_eq]

/-- At a batch's first tile the first carried array is reset to the key projection of the point's blocks. -/
theorem keys_first (c : Dev nD) (t : Fin cfg0.N) (h0 : t.val % 4 = 0) :
    (outsAt0 m c t.val t.isLt).2.1 = keysAt m c t := by
  rw [outsAt0_A m c t h0]
  dsimp only
  exact keys_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)

/-- … and the second to the value projection. -/
theorem vals_first (c : Dev nD) (t : Fin cfg0.N) (h0 : t.val % 4 = 0) :
    (outsAt0 m c t.val t.isLt).2.2 = valsAt m c t := by
  rw [outsAt0_A m c t h0]
  dsimp only
  exact vals_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)

/-- At any other tile the carried arrays are what the point before left. -/
theorem keys_kept (c : Dev nD) (t : Fin cfg0.N) (h0 : ¬t.val % 4 = 0) :
    (outsAt0 m c t.val t.isLt).2.1 = (outsAt0 m c (prev t).val (prev t).isLt).2.1 := by
  rw [outsAt0_B m c t h0]
  rfl

theorem vals_kept (c : Dev nD) (t : Fin cfg0.N) (h0 : ¬t.val % 4 = 0) :
    (outsAt0 m c t.val t.isLt).2.2 = (outsAt0 m c (prev t).val (prev t).isLt).2.2 := by
  rw [outsAt0_B m c t h0]
  rfl

/-- AFTER EVERY POINT the carried arrays hold the projections of that point's own key and value blocks: a first tile
    resets them, any other tile inherits them from the point before, whose key and value blocks are the same. -/
theorem carried_eq (c : Dev nD) : ∀ (n : ℕ) (t : Fin cfg0.N), t.val = n →
    (outsAt0 m c t.val t.isLt).2.1 = keysAt m c t ∧ (outsAt0 m c t.val t.isLt).2.2 = valsAt m c t
  | 0, t, ht => ⟨keys_first m c t (by rw [ht]), vals_first m c t (by rw [ht])⟩
  | n + 1, t, ht => by
    by_cases h0 : t.val % 4 = 0
    · exact ⟨keys_first m c t h0, vals_first m c t h0⟩
    · have ih := carried_eq c n (prev t) (by show t.val - 1 = n; omega)
      exact ⟨(keys_kept m c t h0).trans (ih.1.trans (keysAt_prev m c t h0)),
             (vals_kept m c t h0).trans (ih.2.trans (valsAt_prev m c t h0))⟩

/-- The output block at a batch's first tile. -/
theorem out_first (c : Dev nD) (t : Fin cfg0.N) (h0 : t.val % 4 = 0) :
    (outsAt0 m c t.val t.isLt).1
      = k0_pay3 (iblk m c 0 t) (iblk m c 3 t) (iblk m c 4 t) (keysAt m c t) (valsAt m c t) := by
  rw [outsAt0_A m c t h0]
  dsimp only
  exact out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)

/-- The output block at any other tile, over what the point before left in the carried arrays. -/
theorem out_later (c : Dev nD) (t : Fin cfg0.N) (h0 : ¬t.val % 4 = 0) :
    (outsAt0 m c t.val t.isLt).1
      = k0_pay3 (iblk m c 0 t) (iblk m c 3 t) (iblk m c 4 t)
          (outsAt0 m c (prev t).val (prev t).isLt).2.1 (outsAt0 m c (prev t).val (prev t).isLt).2.2 := by
  rw [outsAt0_B m c t h0]
  dsimp only
  exact out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) _ _

/-- EVERY POINT'S OUTPUT BLOCK is the attention payload of its query tile over the projections of its own blocks. -/
theorem out_eq (c : Dev nD) (t : Fin cfg0.N) :
    (outsAt0 m c t.val t.isLt).1
      = k0_pay3 (iblk m c 0 t) (iblk m c 3 t) (iblk m c 4 t) (keysAt m c t) (valsAt m c t) := by
  by_cases h0 : t.val % 4 = 0
  · exact out_first m c t h0
  · have ih := carried_eq m c (prev t).val (prev t) rfl
    rw [out_later m c t h0, ih.1, ih.2, keysAt_prev m c t h0, valsAt_prev m c t h0]

end Cert.KernelIdeal.Carried

end
-- ==== Proof.LibScaleSum.lean ====
/-
  A non-negative finite factor moves across a finite sum on the extended reals.

  Multiplication on the extended reals does not distribute over addition in general (⊤ + ⊥ = ⊥ breaks it for factors of
  mixed sign), but for a factor `c` with `0 ≤ c` and `c ≠ ⊤` it does, at every pair of summands, infinite ones
  included. Hence `(∑ f) * c = ∑ (f * c)` over any finite index set, and a bilinear sum whose left factors are each
  scaled by `c` is the unscaled sum times `c`: `∑ (a i * c) * b i = (∑ a i * b i) * c`. No summand need be finite.

  The f32 word `0x3E800000` denotes the real 1/4, which is such a factor.
-/
import Idealize.ShloMosaic.PureOps.Ideal

noncomputable section

namespace Cert.LibScaleSum

open Idealize.ShloMosaic

/-- A finite sum times a non-negative finite factor is the sum of the scaled terms, on all extended reals. -/
theorem sum_mul_of_nonneg_of_ne_top {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- Scaling every left factor of a bilinear sum by such a `c` scales the sum: `∑ (a i * c) * b i = (∑ a i * b i) * c`. -/
theorem sum_scaled_mul {ι : Type*} (s : Finset ι) (a b : ι → EReal) {c : EReal} (h0 : 0 ≤ c) (ht : c ≠ ⊤) :
    ∑ i ∈ s, (a i * c) * b i = (∑ i ∈ s, a i * b i) * c := by
  rw [sum_mul_of_nonneg_of_ne_top s _ h0 ht]
  exact Finset.sum_congr rfl fun i _ => mul_right_comm _ _ _

/-- The f32 word `0x3E800000` denotes the real 1/4. -/
theorem ofBits_quarter : Ideal.ofBits .f32 0x3E800000#32 = ((1 / 4 : ℝ) : EReal) := by
  simp [Ideal.ofBits, Ideal.ieee, -EReal.coe_mul]; norm_num

theorem quarter_nonneg : (0 : EReal) ≤ Ideal.ofBits .f32 0x3E800000#32 := by
  rw [ofBits_quarter]; exact_mod_cast (by norm_num : (0 : ℝ) ≤ 1 / 4)

theorem quarter_ne_top : Ideal.ofBits .f32 0x3E800000#32 ≠ ⊤ := by
  rw [ofBits_quarter]; exact EReal.coe_ne_top _

end Cert.LibScaleSum

end
-- ==== Proof.AttnSpec.lean ====
/-
  The result both programs compute, as ONE function of the nine argument arrays, row by row on the extended reals.

  For a batch `b`, a query position `t` and an output channel `h`:
    * a linear layer's row:  `linRow x W β h = (∑ f, x f * W f h) + β h`;
    * the query row `Q = linRow q[b,t,·] Wq bq`, the key rows `K s = linRow k[b,s,·] Wk bk` and the value rows
      `V s = linRow v[b,s,·] Wv bv`, for the 2048 positions `s`;
    * the scaled scores of the row:  `energyRow Q K s = (∑ h, Q h * K s h) * (1/4)`  (the scale applied to the contracted
      sum; scaling every `Q h` first gives the same number: `energyRow_scaled`);
    * the row's softmax with the maximum subtracted:  `soft E s = exp (E s - rowMax E) / ∑ s', exp (E s' - rowMax E)`,
      `rowMax E` the fold of `max` over the row from `-∞`;
    * the weighted sum of value rows:  `attnRow Q K V h = ∑ s, soft (energyRow Q K) s * V s h`.
  `G` is that number at the index `(b, t, h)`. The float words for 1/4 and `-∞` are kept as the programs spell them.
-/
import Idealize.ShloMosaic.PureOps.Ideal
import Idealize.ShloMosaic.Lib.ValueIdx
import proofs.«106865_j1803886264320_2_alg».proof.Proof.LibScaleSum

noncomputable section

namespace Cert.AttnSpec

open Idealize.ShloMosaic Idealize.ShloMosaic.ValueIdx

/-- The scale 1/4, as both programs spell it. -/
def cScale : EReal := Ideal.ofBits .f32 0x3E800000#32

/-- The maximum's starting value `-∞`, as both programs spell it. -/
def negInf : EReal := Ideal.ofBits .f32 0xFF800000#32

/-- One row of a linear layer: `x · W + β` at output channel `h`. -/
def linRow (x : Fin 512 → EReal) (W : Fin 512 → Fin 512 → EReal) (β : Fin 512 → EReal) (h : Fin 512) : EReal :=
  (∑ f : Fin 512, x f * W f h) + β h

/-- The scaled score of a query row against key row `s`. -/
def energyRow (Q : Fin 512 → EReal) (K : Fin 2048 → Fin 512 → EReal) (s : Fin 2048) : EReal :=
  (∑ h : Fin 512, Q h * K s h) * cScale

/-- Scaling each entry of the query row before contracting gives the same score, on all extended reals. -/
theorem energyRow_scaled (Q : Fin 512 → EReal) (K : Fin 2048 → Fin 512 → EReal) (s : Fin 2048) :
    ∑ h : Fin 512, (Q h * cScale) * K s h = energyRow Q K s :=
  Cert.LibScaleSum.sum_scaled_mul Finset.univ Q (K s) Cert.LibScaleSum.quarter_nonneg Cert.LibScaleSum.quarter_ne_top

/-- A row's maximum: the fold of `max` over its 2048 entries from `-∞`. -/
def rowMax (E : Fin 2048 → EReal) : EReal := (Finset.univ : Finset (Fin 2048)).fold max negInf E

/-- Taking the maximum with the starting value once more changes nothing. -/
theorem max_negInf_rowMax (E : Fin 2048 → EReal) : max negInf (rowMax E) = rowMax E :=
  max_eq_right ((Finset.le_fold_max negInf).2 (Or.inl le_rfl))

/-- The row's softmax, the maximum subtracted before exponentiating. -/
def soft (E : Fin 2048 → EReal) (s : Fin 2048) : EReal :=
  Ideal.div (Ideal.exp (E s - rowMax E)) (∑ s' : Fin 2048, Ideal.exp (E s' - rowMax E))

/-- The attention output of one query row at channel `h`. -/
def attnRow (Q : Fin 512 → EReal) (K V : Fin 2048 → Fin 512 → EReal) (h : Fin 512) : EReal :=
  ∑ s : Fin 2048, soft (energyRow Q K) s * V s h

/-- The whole result: projections, scaled scores, softmax and weighted sum at `(b, t, h)`. -/
def G (q k v : (⟨3, ![8, 2048, 512]⟩ : Shape).Idx → EReal)
    (Wq : (⟨2, ![512, 512]⟩ : Shape).Idx → EReal) (bq : (⟨1, ![512]⟩ : Shape).Idx → EReal)
    (Wk : (⟨2, ![512, 512]⟩ : Shape).Idx → EReal) (bk : (⟨1, ![512]⟩ : Shape).Idx → EReal)
    (Wv : (⟨2, ![512, 512]⟩ : Shape).Idx → EReal) (bv : (⟨1, ![512]⟩ : Shape).Idx → EReal) :
    (⟨3, ![8, 2048, 512]⟩ : Shape).Idx → EReal := fun i =>
  attnRow
    (linRow (fun f => q (ix3 (i 0) (i 1) f)) (fun f h => Wq (ix2 f h)) (fun h => bq (ix1 h)))
    (fun s => linRow (fun f => k (ix3 (i 0) s f)) (fun f h => Wk (ix2 f h)) (fun h => bk (ix1 h)))
    (fun s => linRow (fun f => v (ix3 (i 0) s f)) (fun f h => Wv (ix2 f h)) (fun h => bv (ix1 h)))
    (i 2)

end Cert.AttnSpec

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.ProjPayload.lean ====
/-
  The key and value projections, read at an index.

  Each of the two arrays kept for the later grid points is one linear layer applied to every one of the 2048
  positions: the `[1, 2048, 512]` input block is viewed as a `2048 × 512` matrix, multiplied by the `512 × 512`
  weight into a zero accumulator, and the `[1, 512]` bias row is added to every row of the product. On the extended
  reals a change of float format is the identity, a cast that drops the leading unit axis keeps the two remaining
  coordinates, and a cast to the same shape changes nothing, so the entry at position `s` and channel `h` is

      (∑ f, x[0, s, f] · W[f, h]) + β[0, h],

  the row `linRow` of the specification. One lemma at any extents `M, K, N` carries the argument; the two
  projections are its instances at `2048, 512, 512`.
-/
import proofs.«106865_j1803886264320_2_alg».proof.Proof.Gen.KernelIdeal.Skeleton
import proofs.«106865_j1803886264320_2_alg».proof.Proof.AttnSpec
import proofs.«106865_j1803886264320_2_alg».proof.Proof.LibMatmul
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-- A linear layer over a block of rows, at any extents: the `[1, M, K]` block viewed as `M × K`, times the
`K × N` weight into the zero accumulator, plus the `[1, N]` bias row spread over the `M` rows, read at `(p, q)`,
is `(∑ k, x[0, p, k] · W[k, q]) + β[0, q]`. -/
theorem linear_apply {M K N : ℕ} (x : FVec Ideal ⟨3, ![1, M, K]⟩ .f32) (W : FVec Ideal ⟨2, ![K, N]⟩ .f32)
    (β : FVec Ideal ⟨2, ![1, N]⟩ .f32)
    (hx : (⟨3, ![1, M, K]⟩ : Shape).ShapeCasts ⟨2, ![M, K]⟩)
    (hβ : (⟨2, ![1, N]⟩ : Shape).ShapeCasts ⟨2, ![1, N]⟩)
    (hb : (⟨2, ![1, N]⟩ : Shape).Broadcasts ⟨2, ![M, N]⟩)
    (ht : FTy.bits .bf16 < FTy.bits .f32) (p : Fin M) (q : Fin N) :
    addf (matmul (DotDims.plain M K N) none (truncf .bf16 (shapeCast ⟨2, ![M, K]⟩ x hx) ht) (truncf .bf16 W ht)
          (constant (F := Ideal) ⟨2, ![M, N]⟩ .f32 0x00000000#32))
        (broadcastTo ⟨2, ![M, N]⟩ (shapeCast ⟨2, ![1, N]⟩ β hβ) hb) (ix2 p q)
      = (∑ k : Fin K, x (ix3 (0 : Fin 1) p k) * W (ix2 k q)) + β (ix2 (0 : Fin 1) q) := by
  rw [addf_apply]
  refine congrArg₂ (· + ·) ?_ ?_
  · -- the product: the textbook sum over the contracted axis, each factor read through its format change
    refine (Cert.Bridge.LibMatmul.matmul_zero_apply none _ _ p q).trans ?_
    refine Finset.sum_congr rfl fun k _ => ?_
    rw [truncf_apply, truncf_apply, shapeCast_1ab_ab_apply]
  · -- the bias: a cast to its own shape, then its one row read in every row
    rw [shapeCast_self]
    exact broadcastTo_1b_ab_apply β hb p q

/-- The key projection at position `s` and channel `h` is the specification's linear row of `x[0, s, ·]`. -/
theorem pay1_apply (x : Vec Ideal S1x2048x512 .f32) (W : Vec Ideal S512x512 .f32) (β : Vec Ideal S1x512 .f32)
    (s : Fin 2048) (h : Fin 512) :
    k0_pay1 (F := Ideal) x W β (ix2 s h)
      = Cert.AttnSpec.linRow (fun f => x (ix3 (0 : Fin 1) s f)) (fun f h' => W (ix2 f h'))
          (fun h' => β (ix2 (0 : Fin 1) h')) h := by
  unfold k0_pay1
  refine (congrFun (shapeCast_self _ _) (ix2 s h)).trans ?_
  exact linear_apply x W β _ _ _ _ s h

/-- The value projection at position `s` and channel `h` is the specification's linear row of `x[0, s, ·]`. -/
theorem pay2_apply (x : Vec Ideal S1x2048x512 .f32) (W : Vec Ideal S512x512 .f32) (β : Vec Ideal S1x512 .f32)
    (s : Fin 2048) (h : Fin 512) :
    k0_pay2 (F := Ideal) x W β (ix2 s h)
      = Cert.AttnSpec.linRow (fun f => x (ix3 (0 : Fin 1) s f)) (fun f h' => W (ix2 f h'))
          (fun h' => β (ix2 (0 : Fin 1) h')) h := by
  unfold k0_pay2
  refine (congrFun (shapeCast_self _ _) (ix2 s h)).trans ?_
  exact linear_apply x W β _ _ _ _ s h

end Cert.KernelIdeal.Pay

end
-- ==== Proof.LibUnitAxis.lean ====
/-
  Casts and broadcasts across a unit axis, read at an index, at any extents.

  A `keepdims` reduction leaves a unit axis behind, and a row-wise statistic is spread back over its row through one:
  a matrix `[a, b]` is viewed as `[a, 1, b]` and back, a vector `[a]` as the column `[a, 1]`, and a unit axis is
  broadcast over many. A cast keeps every element's row-major position, and a unit axis contributes nothing to it;
  a broadcast reads the operand at the same coordinates, except 0 on each unit axis. The five forms below are stated
  over the literal-size index constructors `ix1 … ix3`, so that they fire on indices built from coordinates.
-/
import Idealize.ShloMosaic.Lib.Pipeline.Value
import Idealize.ShloMosaic.Lib.ValueIdx
import Idealize.ShloMosaic.Lib.ValueLayout
noncomputable section
open Idealize.ShloMosaic Idealize.ShloMosaic.ValueIdx
namespace Cert.Lib.UnitAxis

/-! ## The five forms

A matrix viewed with a unit middle axis and back, a vector viewed as one column, and a unit axis broadcast over
many. Each is a statement about row-major positions (a cast) or about which coordinates are kept (a broadcast). -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array broadcast to `[a, m, b]` reads, at `(p, q, c)`, the operand at `(p, 0, c)`. -/
theorem broadcastTo_a1b_amb_apply {a m b : ℕ} (v : (⟨3, ![a, 1, b]⟩ : Shape).Idx → α)
    (h : (⟨3, ![a, 1, b]⟩ : Shape).Broadcasts ⟨3, ![a, m, b]⟩) (p : Fin a) (q : Fin m) (c : Fin b) :
    broadcastTo ⟨3, ![a, m, b]⟩ v h (ix3 p q c) = v (ix3 p (0 : Fin 1) c) := by
  refine broadcastTo_apply v h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

end Layout

end Cert.Lib.UnitAxis

end
-- ==== Proof.AttnPayload.lean ====
/-
  The attention payload read at an index.

  For one tile of 512 query positions the body computes, row by row: the query row (a linear layer's row, every
  entry then scaled by 1/4), its scores against the 2048 key rows, the row's softmax with the maximum subtracted,
  and the weighted sum of the value rows. Each stage is named below as a function of the stage before it and
  read at an index; the last theorem composes the readings into the specification's `attnRow`.
-/
import proofs.«106865_j1803886264320_2_alg».proof.Proof.Gen.KernelIdeal.Skeleton
import proofs.«106865_j1803886264320_2_alg».proof.Proof.AttnSpec
import proofs.«106865_j1803886264320_2_alg».proof.Proof.LibMatmul
import proofs.«106865_j1803886264320_2_alg».proof.Proof.LibUnitAxis
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

namespace Attn

/-! ## The stages -/

/-- The scaled query tile: `(x · W + β) * 1/4`. -/
def qTile (x : Vec Ideal S1x512x512 .f32) (W : Vec Ideal S512x512 .f32) (β : Vec Ideal S1x512 .f32) :
    FVec Ideal S512x512 .bf16 :=
  truncf .bf16
    (mulf
      (addf
        (matmul dot_S512x512_S512x512_S512x512_1_0_0_1_n_n none
          (truncf .bf16 (shapeCast S512x512 x shapeCasts_S1x512x512_S512x512) bitsLt_bf16_f32)
          (truncf .bf16 W bitsLt_bf16_f32) (constant S512x512 .f32 0x00000000#32))
        (broadcastTo S512x512 (shapeCast S1x512 β shapeCasts_S1x512_S1x512) broadcasts_S1x512_S512x512))
      (broadcast S512x512 (Scalar.ofBits .f32 0x3E800000#32)))
    bitsLt_bf16_f32

/-- The scores of every query row against every key row. -/
def scoreTile (q : FVec Ideal S512x512 .bf16) (Ks : FVec Ideal S2048x512 .bf16) : FVec Ideal S512x2048 .f32 :=
  matmul dot_S512x512_S2048x512_S512x2048_1_1_0_0_n_n none q Ks (constant S512x2048 .f32 0x00000000#32)

/-- A per-row statistic spread back over its row: a vector viewed as a column, the column repeated along the row. -/
def spread (v : FVec Ideal S512 .f32) : FVec Ideal S512x2048 .f32 :=
  broadcastTo S512x2048 (shapeCast S512x1 v shapeCasts_S512_S512x1) broadcasts_S512x1_S512x2048

/-- The exponentials of a score tile, each row's maximum subtracted. -/
def expTile (E : FVec Ideal S512x2048 .f32) : FVec Ideal S512x2048 .f32 :=
  exp (subf E (spread (multiReduction .maximumf [1] S512 E 0xFF800000#32 reduces_S512x2048_S512 (.inl rfl) rfl)))

/-- The row-wise softmax of a score tile. -/
def probTile (E : FVec Ideal S512x2048 .f32) : FVec Ideal S512x2048 .bf16 :=
  truncf .bf16
    (divf (expTile E)
      (spread (multiReduction .add [1] S512 (expTile E) 0x00000000#32 reduces_S512x2048_S512 (.inl rfl) rfl)))
    bitsLt_bf16_f32

/-- The weighted sum of the value rows, stored as one tile. -/
def outTile (p : FVec Ideal S512x2048 .bf16) (Vs : FVec Ideal S2048x512 .bf16) : FVec Ideal S1x512x512 .f32 :=
  shapeCast S1x512x512
    (matmul dot_S512x2048_S2048x512_S512x512_1_0_0_1_n_n none p Vs (constant S512x512 .f32 0x00000000#32))
    shapeCasts_S512x512_S1x512x512

/-- The body's arithmetic is the composition of the stages. -/
theorem pay3_eq (x : Vec Ideal S1x512x512 .f32) (W : Vec Ideal S512x512 .f32) (β : Vec Ideal S1x512 .f32)
    (Ks Vs : Vec Ideal S2048x512 .bf16) :
    k0_pay3 (F := Ideal) x W β Ks Vs = outTile (probTile (scoreTile (qTile x W β) Ks)) Vs := rfl

/-! ## The query row -/

/-- The scaled query tile at `(r, h')`: the linear layer's row of tile row `r` at channel `h'`, times 1/4. -/
theorem qTile_apply (x : Vec Ideal S1x512x512 .f32) (W : Vec Ideal S512x512 .f32) (β : Vec Ideal S1x512 .f32)
    (r h' : Fin 512) :
    qTile x W β (ix2 r h')
      = Cert.AttnSpec.linRow (fun f => x (ix3 (0 : Fin 1) r f)) (fun f c => W (ix2 f c)) (fun c => β (ix2 (0 : Fin 1) c)) h'
          * Cert.AttnSpec.cScale := by
  have hm := Cert.Bridge.LibMatmul.matmul_zero_apply (M := 512) (K := 512) (N := 512) none
    (truncf .bf16 (shapeCast S512x512 x shapeCasts_S1x512x512_S512x512) bitsLt_bf16_f32 : FVec Ideal S512x512 .bf16)
    (truncf .bf16 W bitsLt_bf16_f32 : FVec Ideal S512x512 .bf16) r h'
  have hb := (broadcastTo_1b_ab_apply (shapeCast S1x512 β shapeCasts_S1x512_S1x512) broadcasts_S1x512_S512x512 r h').trans
    (congrFun (shapeCast_self β shapeCasts_S1x512_S1x512) (ix2 (0 : Fin 1) h'))
  have hx : ∀ f : Fin 512, shapeCast S512x512 x shapeCasts_S1x512x512_S512x512 (ix2 r f) = x (ix3 (0 : Fin 1) r f) :=
    fun f => shapeCast_1ab_ab_apply x shapeCasts_S1x512x512_S512x512 r f
  unfold Cert.AttnSpec.linRow Cert.AttnSpec.cScale
  refine congrArg (· * Ideal.ofBits .f32 0x3E800000#32) ?_
  refine congrArg₂ (· + ·) (hm.trans (Finset.sum_congr rfl fun f _ => congrArg (· * W (ix2 f h')) (hx f))) hb

/-! ## The scores -/

/-- A score at `(r, s)`: query row `r` against key row `s`, both contracted on their channel axis. -/
theorem scoreTile_apply (q : FVec Ideal S512x512 .bf16) (Ks : FVec Ideal S2048x512 .bf16) (r : Fin 512) (s : Fin 2048) :
    scoreTile q Ks (ix2 r s) = ∑ c : Fin 512, q (ix2 r c) * Ks (ix2 s c) := by
  refine (Ideal.matmul_constant_zero_apply dot_S512x512_S2048x512_S512x2048_1_1_0_0_n_n none q Ks (ix2 r s)).trans ?_
  rw [← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 r s)
      ((contrEquiv1 dot_S512x512_S2048x512_S512x2048_1_1_0_0_n_n 512 rfl rfl).symm k) = ix2 r k :=
    funext fun a => Fin.ext (by
      match a with
      | ⟨0, _⟩ => rfl
      | ⟨1, _⟩ =>
        exact (dot_S512x512_S2048x512_S512x2048_1_1_0_0_n_n.lhsIdx_val_of_single (cl := 1) rfl (ix2 r s) _).trans hk)
  have er : dot_S512x512_S2048x512_S512x2048_1_1_0_0_n_n.rhsIdx (ix2 r s)
      ((contrEquiv1 dot_S512x512_S2048x512_S512x2048_1_1_0_0_n_n 512 rfl rfl).symm k) = ix2 s k :=
    funext fun a => Fin.ext (by
      match a with
      | ⟨0, _⟩ => rfl
      | ⟨1, _⟩ =>
        exact (dot_S512x512_S2048x512_S512x2048_1_1_0_0_n_n.rhsIdx_val_of_single (cr := 1) rfl (ix2 r s) _).trans hk)
  rw [el, er]

/-! ## The softmax of a row -/

/-- A spread statistic at `(r, s)` is the statistic of row `r`. -/
theorem spread_apply (v : FVec Ideal S512 .f32) (r : Fin 512) (s : Fin 2048) : spread v (ix2 r s) = v (ix1 r) :=
  (Cert.Lib.UnitAxis.broadcastTo_a1_ab_apply (shapeCast S512x1 v shapeCasts_S512_S512x1) broadcasts_S512x1_S512x2048 r s).trans
    (Cert.Lib.UnitAxis.shapeCast_a_a1_apply v shapeCasts_S512_S512x1 r (0 : Fin 1))

/-- The index a reduction over the row axis inserts: row `r`, position `s`. -/
theorem lift_row (r : Fin 512) (s : Fin 2048) : reduces_S512x2048_S512.lift (ix1 r) s = ix2 r s :=
  funext fun a => Fin.ext (by
    match a with
    | ⟨0, _⟩ => rfl
    | ⟨1, _⟩ => rfl)

/-- The maximum over the row axis, from `-∞`, at row `r`. -/
theorem rowMax_apply (E : FVec Ideal S512x2048 .f32) (hφ : FKind.Formats .f32)
    (hacc : (0xFF800000#32 : BitVec FTy.f32.bits) = FKind.maximumf.neutral .f32 hφ) (r : Fin 512) :
    multiReduction (F := Ideal) .maximumf [1] S512 E 0xFF800000#32 reduces_S512x2048_S512 hφ hacc (ix1 r)
      = Cert.AttnSpec.rowMax (fun s => E (ix2 r s)) := by
  refine (Ideal.multiReduction_maximumf_single E 0xFF800000#32 reduces_S512x2048_S512 hφ hacc (ix1 r)).trans ?_
  unfold Cert.AttnSpec.rowMax Cert.AttnSpec.negInf
  exact congrArg (fun f : Fin 2048 → EReal => Finset.fold max (Ideal.ofBits .f32 0xFF800000#32) f Finset.univ)
    (funext fun s => congrArg E (lift_row r s))

/-- The sum over the row axis at row `r`. -/
theorem rowSum_apply (X : FVec Ideal S512x2048 .f32) (hφ : FKind.Formats .f32)
    (hacc : (0x00000000#32 : BitVec FTy.f32.bits) = FKind.add.neutral .f32 hφ) (r : Fin 512) :
    multiReduction (F := Ideal) .add [1] S512 X 0x00000000#32 reduces_S512x2048_S512 hφ hacc (ix1 r)
      = ∑ s : Fin 2048, X (ix2 r s) := by
  refine (Ideal.multiReduction_add_single X 0x00000000#32 reduces_S512x2048_S512 hφ hacc (ix1 r)).trans ?_
  exact Finset.sum_congr rfl fun s _ => congrArg X (lift_row r s)

/-- An exponential at `(r, s)`: of the score less its row's maximum. -/
theorem expTile_apply (E : FVec Ideal S512x2048 .f32) (r : Fin 512) (s : Fin 2048) :
    expTile E (ix2 r s) = Ideal.exp (E (ix2 r s) - Cert.AttnSpec.rowMax (fun s' => E (ix2 r s'))) :=
  congrArg (fun m => Ideal.exp (E (ix2 r s) - m))
    ((spread_apply _ r s).trans (rowMax_apply E (.inl rfl) rfl r))

/-- A probability at `(r, s)`: the softmax of row `r` at `s`. -/
theorem probTile_apply (E : FVec Ideal S512x2048 .f32) (r : Fin 512) (s : Fin 2048) :
    probTile E (ix2 r s) = Cert.AttnSpec.soft (fun s' => E (ix2 r s')) s := by
  unfold Cert.AttnSpec.soft
  refine congrArg₂ Ideal.div (expTile_apply E r s) ?_
  refine (spread_apply _ r s).trans ?_
  refine (rowSum_apply (expTile E) (.inl rfl) rfl r).trans ?_
  exact Finset.sum_congr rfl fun s' _ => expTile_apply E r s'

/-! ## The weighted sum of the value rows -/

/-- The stored tile at `(0, r, h)`: the probabilities of row `r` against channel `h` of the value rows. -/
theorem outTile_apply (p : FVec Ideal S512x2048 .bf16) (Vs : FVec Ideal S2048x512 .bf16) (r h : Fin 512) :
    outTile p Vs (ix3 (0 : Fin 1) r h) = ∑ s : Fin 2048, p (ix2 r s) * Vs (ix2 s h) :=
  (shapeCast_ab_1ab_apply _ shapeCasts_S512x512_S1x512x512 (0 : Fin 1) r h).trans
    (Cert.Bridge.LibMatmul.matmul_zero_apply (M := 512) (K := 2048) (N := 512) none p Vs r h)

end Attn

/-! ## The payload at an index -/

open Attn in
/-- The stored attention tile at `(0, r, h)` is the specification's attention row of tile row `r` at channel `h`. -/
theorem pay3_apply (x : Vec Ideal S1x512x512 .f32) (W : Vec Ideal S512x512 .f32) (β : Vec Ideal S1x512 .f32)
    (Ks Vs : Vec Ideal S2048x512 .bf16) (r h : Fin 512) :
    k0_pay3 (F := Ideal) x W β Ks Vs (ix3 (0 : Fin 1) r h)
      = Cert.AttnSpec.attnRow
          (Cert.AttnSpec.linRow (fun f => x (ix3 (0 : Fin 1) r f)) (fun f h' => W (ix2 f h')) (fun h' => β (ix2 (0 : Fin 1) h')))
          (fun s h' => Ks (ix2 s h')) (fun s h' => Vs (ix2 s h')) h := by
  have hE : (fun s : Fin 2048 => scoreTile (qTile x W β) Ks (ix2 r s))
      = Cert.AttnSpec.energyRow
          (Cert.AttnSpec.linRow (fun f => x (ix3 (0 : Fin 1) r f)) (fun f h' => W (ix2 f h')) (fun h' => β (ix2 (0 : Fin 1) h')))
          (fun s h' => Ks (ix2 s h')) :=
    funext fun s => (scoreTile_apply (qTile x W β) Ks r s).trans
      ((Finset.sum_congr rfl fun c _ => congrArg (· * Ks (ix2 s c)) (qTile_apply x W β r c)).trans
        (Cert.AttnSpec.energyRow_scaled _ (fun s h' => Ks (ix2 s h')) s))
  refine (congrFun (pay3_eq x W β Ks Vs) (ix3 (0 : Fin 1) r h)).trans ?_
  refine (outTile_apply _ Vs r h).trans ?_
  unfold Cert.AttnSpec.attnRow
  refine Finset.sum_congr rfl fun s _ => congrArg (· * Vs (ix2 s h)) ?_
  exact (probTile_apply _ r s).trans (congrArg (fun E => Cert.AttnSpec.soft E s) hE)

end Cert.KernelIdeal.Pay

end
-- ==== Proof.KernelResult.lean ====
/-
  The kernel's result array, after the run, is the specification's function of the nine argument arrays.

  A grid point's output block is the attention payload of its query tile over the projections of its own key and value
  blocks. Read at tile row `r` and channel `h`, and with every block read back where its window places it in its
  array, that is the specification at batch `t / 4`, row `512·(t % 4) + r`, channel `h`: the query row is the linear
  layer of the array's row, the key and value rows are the linear layers of the batch's rows, and the bias rows are the
  bias vectors. So what point `t` writes back is block `t` of the specification. The 32 blocks — 8 batches by 4 tiles
  of 512 rows — cover the `[8, 2048, 512]` array: index `(b, n, h)` lies in the block of point `4·b + n / 512`.
-/
import proofs.«106865_j1803886264320_2_alg».proof.Proof.Gen.KernelIdeal.Value
import proofs.«106865_j1803886264320_2_alg».proof.Proof.Carried
import proofs.«106865_j1803886264320_2_alg».proof.Proof.ProjPayload
import proofs.«106865_j1803886264320_2_alg».proof.Proof.AttnPayload
import proofs.«106865_j1803886264320_2_alg».proof.Proof.AttnSpec

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks Cert.KernelIdeal.Carried Cert.KernelIdeal.Pay

variable (m : (ℓ : Loc nD τ sig) → Buf (Elt Ideal) ℓ) (ρ : Dev nD → PrngReg)

/-- The specification at the argument arrays of core `c`. -/
def spec (c : Dev nD) : S8x2048x512.Idx → EReal :=
  Cert.AttnSpec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- A query-tile row of a point's block is the array's row of its batch. -/
theorem qrow_eq (c : Dev nD) (t : Fin cfg0.N) (r : Fin 512) :
    (fun f : Fin 512 => (iblk m c 0 t : Vec Ideal S1x512x512 .f32) (ix3 (0 : Fin 1) r f))
      = fun f => m ((c : Thread nD τ).loc main_arg0) (ix3 (batch t) (qrow t r) f) := by
  funext f; rw [iblk0_apply, V_main_arg0]

/-- A key row of a point's block is the array's row of its batch. -/
theorem krow_eq (c : Dev nD) (t : Fin cfg0.N) (s : Fin 2048) :
    (fun f : Fin 512 => (iblk m c 1 t : Vec Ideal S1x2048x512 .f32) (ix3 (0 : Fin 1) s f))
      = fun f => m ((c : Thread nD τ).loc main_arg1) (ix3 (batch t) s f) := by
  funext f; rw [iblk1_apply, V_main_arg1]

/-- A value row of a point's block is the array's row of its batch. -/
theorem vrow_eq (c : Dev nD) (t : Fin cfg0.N) (s : Fin 2048) :
    (fun f : Fin 512 => (iblk m c 2 t : Vec Ideal S1x2048x512 .f32) (ix3 (0 : Fin 1) s f))
      = fun f => m ((c : Thread nD τ).loc main_arg2) (ix3 (batch t) s f) := by
  funext f; rw [iblk2_apply, V_main_arg2]

/-- The weight blocks are the weight arrays. -/
theorem w3_eq (c : Dev nD) (t : Fin cfg0.N) :
    (fun (f h : Fin 512) => (iblk m c 3 t : Vec Ideal S512x512 .f32) (ix2 f h))
      = fun f h => m ((c : Thread nD τ).loc main_arg3) (ix2 f h) := by
  rw [iblk3_eq, V_main_arg3]
theorem w5_eq (c : Dev nD) (t : Fin cfg0.N) :
    (fun (f h : Fin 512) => (iblk m c 5 t : Vec Ideal S512x512 .f32) (ix2 f h))
      = fun f h => m ((c : Thread nD τ).loc main_arg5) (ix2 f h) := by
  rw [iblk5_eq, V_main_arg5]
theorem w7_eq (c : Dev nD) (t : Fin cfg0.N) :
    (fun (f h : Fin 512) => (iblk m c 7 t : Vec Ideal S512x512 .f32) (ix2 f h))
      = fun f h => m ((c : Thread nD τ).loc main_arg7) (ix2 f h) := by
  rw [iblk7_eq, V_main_arg7]

/-- The bias-row blocks are the bias vectors. -/
theorem b4_eq (c : Dev nD) (t : Fin cfg0.N) :
    (fun h : Fin 512 => (iblk m c 4 t : Vec Ideal S1x512 .f32) (ix2 (0 : Fin 1) h))
      = fun h => m ((c : Thread nD τ).loc main_arg4) (ix1 h) := by
  funext h; rw [iblk4_eq, V_main_v0, rowView_apply]
theorem b6_eq (c : Dev nD) (t : Fin cfg0.N) :
    (fun h : Fin 512 => (iblk m c 6 t : Vec Ideal S1x512 .f32) (ix2 (0 : Fin 1) h))
      = fun h => m ((c : Thread nD τ).loc main_arg6) (ix1 h) := by
  funext h; rw [iblk6_eq, V_main_v1, rowView_apply]
theorem b8_eq (c : Dev nD) (t : Fin cfg0.N) :
    (fun h : Fin 512 => (iblk m c 8 t : Vec Ideal S1x512 .f32) (ix2 (0 : Fin 1) h))
      = fun h => m ((c : Thread nD τ).loc main_arg8) (ix1 h) := by
  funext h; rw [iblk8_eq, V_main_v2, rowView_apply]

/-- The projected key rows of a point are the specification's key rows of its batch. -/
theorem keys_eq (c : Dev nD) (t : Fin cfg0.N) :
    (fun (s : Fin 2048) (h : Fin 512) => keysAt m c t (ix2 s h))
      = fun s => Cert.AttnSpec.linRow (fun f => m ((c : Thread nD τ).loc main_arg1) (ix3 (batch t) s f))
          (fun f h => m ((c : Thread nD τ).loc main_arg5) (ix2 f h)) (fun h => m ((c : Thread nD τ).loc main_arg6) (ix1 h)) := by
  funext s h
  refine (pay1_apply (iblk m c 1 t) (iblk m c 5 t) (iblk m c 6 t) s h).trans ?_
  rw [krow_eq m c t s, w5_eq m c t, b6_eq m c t]

/-- The projected value rows of a point are the specification's value rows of its batch. -/
theorem vals_eq (c : Dev nD) (t : Fin cfg0.N) :
    (fun (s : Fin 2048) (h : Fin 512) => valsAt m c t (ix2 s h))
      = fun s => Cert.AttnSpec.linRow (fun f => m ((c : Thread nD τ).loc main_arg2) (ix3 (batch t) s f))
          (fun f h => m ((c : Thread nD τ).loc main_arg7) (ix2 f h)) (fun h => m ((c : Thread nD τ).loc main_arg8) (ix1 h)) := by
  funext s h
  refine (pay2_apply (iblk m c 2 t) (iblk m c 7 t) (iblk m c 8 t) s h).trans ?_
  rw [vrow_eq m c t s, w7_eq m c t, b8_eq m c t]

/-- A POINT'S OUTPUT BLOCK at tile row `r`, channel `h` is the specification at its batch, row `512·(t % 4) + r`. -/
theorem block_apply (c : Dev nD) (t : Fin cfg0.N) (r h : Fin 512) :
    k0_pay3 (F := Ideal) (iblk m c 0 t) (iblk m c 3 t) (iblk m c 4 t) (keysAt m c t) (valsAt m c t) (ix3 (0 : Fin 1) r h)
      = spec m c (ix3 (batch t) (qrow t r) h) := by
  refine (pay3_apply (iblk m c 0 t) (iblk m c 3 t) (iblk m c 4 t) (keysAt m c t) (valsAt m c t) r h).trans ?_
  rw [qrow_eq m c t r, w3_eq m c t, b4_eq m c t, keys_eq m c t, vals_eq m c t]
  rfl

/-- WHAT POINT `t` WRITES BACK is block `t` of the specification. -/
theorem flushed_eq (c : Dev nD) (t : Fin cfg0.N) :
    (dats m 0 c).flushed 9 t = ((cfg0.win 9).blk t).view.read (Elt Ideal) (spec m c) := by
  rw [Cert.KernelIdeal.Value.flushed9, out_eq]
  obtain ⟨-, -, -, -, -, -, -, -, -, ⟨e0, e1, e2⟩⟩ := idx_facts t
  funext y
  rw [View.read_apply]
  show k0_pay3 (F := Ideal) (iblk m c 0 t) (iblk m c 3 t) (iblk m c 4 t) (keysAt m c t) (valsAt m c t) y
      = spec m c (((cfg0.win 9).blk t).view.emb y)
  have hy : (y : S1x512x512.Idx) = ix3 (0 : Fin 1) (y 1) (y 2) := by
    funext a; apply Fin.ext
    match a with
    | ⟨0, _⟩ => show (y 0).val = 0; have hy0 : (y 0).val < 1 := (y 0).isLt; omega
    | ⟨1, _⟩ => rfl
    | ⟨2, _⟩ => rfl
  refine (congrArg _ hy).trans ((block_apply m c t (y 1) (y 2)).trans (congrArg (spec m c) ?_))
  funext a; apply Fin.ext
  match a with
  | ⟨0, _⟩ => show t.val / 4 = win0_9.index t (0 : Fin 3) * 1 + 1 * (y 0).val; have hy0 : (y 0).val < 1 := (y 0).isLt; omega
  | ⟨1, _⟩ => show 512 * (t.val % 4) + (y 1).val = win0_9.index t (1 : Fin 3) * 512 + 1 * (y 1).val; omega
  | ⟨2, _⟩ => show (y 2).val = win0_9.index t (2 : Fin 3) * 512 + 1 * (y 2).val; omega

/-- An index of the array is in point `t`'s block iff each coordinate is in the block's range on its axis. -/
theorem mem_blk (t : Fin cfg0.N) (i : S8x2048x512.Idx) :
    i ∈ ((cfg0.win 9).blk t).view.set ↔ ∀ a : Fin 3, win0_9.index t a * S1x512x512.size a ≤ (i a).val
      ∧ (i a).val < win0_9.index t a * S1x512x512.size a + S1x512x512.size a := by
  show i ∈ ((View.whole main_v3).slice (win0_9.rect t)).set ↔ _
  rw [View.set_slice_whole, Rect.mem_set_unit]
  exact Iff.rfl

/-- THE COVER: index `(b, n, h)` lies in the block of point `4·b + n / 512`. -/
theorem cover (i : S8x2048x512.Idx) :
    ∃ t : Fin cfg0.N, (cfg0.win 9).flush t = true ∧ i ∈ ((cfg0.win 9).blk t).view.set := by
  have h0 : (i 0).val < 8 := (i 0).isLt
  have h1 : (i 1).val < 2048 := (i 1).isLt
  have h2 : (i 2).val < 512 := (i 2).isLt
  have hN : cfg0.N = 32 := N_0
  let t : Fin cfg0.N := ⟨4 * (i 0).val + (i 1).val / 512, by omega⟩
  have ht : t.val = 4 * (i 0).val + (i 1).val / 512 := rfl
  obtain ⟨-, -, -, -, -, -, -, -, -, ⟨e0, e1, e2⟩⟩ := idx_facts t
  refine ⟨t, flush0_9 t, ?_⟩
  rw [mem_blk]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 512 ≤ (i 2).val ∧ (i 2).val < win0_9.index t (2 : Fin 3) * 512 + 512; omega

/-- THE ARRAY after the run is the specification. -/
theorem final (c : Dev nD) : (dats m 0 c).arrAt 9 cfg0.N = spec m c :=
  (dats m 0 c).arrAt_eq_of_cover 9 (spec m c) (fun t _ => flushed_eq m c t) cover

/-- The run, read: the result array at the specification, the nine arguments unchanged. -/
theorem run : θ_run defs (onTc (τ := τ) (main (F := Ideal))) ⟨m, fun _ => 0, ρ⟩ fun r => ∀ c : Dev nD,
      r.2.mem ((c : Thread nD τ).loc main_v3) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelIdeal.Result

end
-- ==== Proof.RefIsSpec.lean ====
/-
  The reference program computes the specification.

  Read stage by stage at an index built from coordinates (b, t, h):
    * each of the three linear layers is a contraction over the 512 input features plus the bias of the output
      channel, which is a row of a linear layer;
    * the scores contract the query row of position t with the key row of position s over the 512 channels and
      are then multiplied by 1/4, which is the scaled score of the row;
    * the reduction with maximum over the last axis, from -∞, is the fold of max over the 2048 entries of the row,
      and taking the maximum with -∞ once more changes nothing;
    * subtracting that maximum, exponentiating, summing the row from the zero word and dividing is the row's softmax;
    * the last contraction, over the 2048 positions, is the weighted sum of value rows.
-/
import proofs.«106865_j1803886264320_2_alg».proof.Proof.Gen.ReferenceIdeal.Read
import proofs.«106865_j1803886264320_2_alg».proof.Proof.AttnSpec
import Idealize.ShloMosaic.PureOps.Reduce
import Idealize.ShloMosaic.PureOps.Ideal
import Idealize.ShloMosaic.PureOps.Ideal.Laws
import Idealize.ShloMosaic.Lib.ValueIdx

namespace Cert.RefSpec

open Cert.ReferenceIdeal Cert.ReferenceIdeal.Gen Cert.ReferenceIdeal.Read Cert.AttnSpec
open Idealize.ShloMosaic Idealize.ShloMosaic.ValueIdx

/-! ## The three linear layers -/

/-- The query layer at (b, s, h): the row of the linear layer on the features of position s. -/
theorem proj_q (x : (⟨S8x2048x512, .f32⟩ : BufTy).Contents (Elt Ideal)) (W : (⟨S512x512, .f32⟩ : BufTy).Contents (Elt Ideal))
    (β : (⟨S512, .f32⟩ : BufTy).Contents (Elt Ideal)) (b : Fin 8) (s : Fin 2048) (h : Fin 512) :
    val_main_v3 (F := Ideal) x W β (ix3 b s h)
      = linRow (fun f => x (ix3 b s f)) (fun f h' => W (ix2 f h')) (fun h' => β (ix1 h')) h := by
  rw [val_main_v3_apply, val_main_v0_apply, val_main_v2_apply, val_main_v1_apply]
  have el : ∀ k : Fin 512, lidx_main_v0 (ix3 b s h) k = ix3 b s k := fun k => funext fun a => Fin.ext (by
    match a with | ⟨0, _⟩ => rfl | ⟨1, _⟩ => rfl | ⟨2, _⟩ => rfl)
  have er : ∀ k : Fin 512, ridx_main_v0 (ix3 b s h) k = ix2 k h := fun k => funext fun a => Fin.ext (by
    match a with | ⟨0, _⟩ => rfl | ⟨1, _⟩ => rfl)
  have eb : idx_main_v1 (idx_main_v2 (ix3 b s h)) = ix1 h := funext fun a => Fin.ext (by
    match a with | ⟨0, _⟩ => rfl)
  simp only [el, er, eb, Ideal.addf_def]
  rfl

/-- The key layer at (b, s, h). -/
theorem proj_k (x : (⟨S8x2048x512, .f32⟩ : BufTy).Contents (Elt Ideal)) (W : (⟨S512x512, .f32⟩ : BufTy).Contents (Elt Ideal))
    (β : (⟨S512, .f32⟩ : BufTy).Contents (Elt Ideal)) (b : Fin 8) (s : Fin 2048) (h : Fin 512) :
    val_main_v7 (F := Ideal) x W β (ix3 b s h)
      = linRow (fun f => x (ix3 b s f)) (fun f h' => W (ix2 f h')) (fun h' => β (ix1 h')) h := by
  rw [val_main_v7_apply, val_main_v4_apply, val_main_v6_apply, val_main_v5_apply]
  have el : ∀ k : Fin 512, lidx_main_v4 (ix3 b s h) k = ix3 b s k := fun k => funext fun a => Fin.ext (by
    match a with | ⟨0, _⟩ => rfl | ⟨1, _⟩ => rfl | ⟨2, _⟩ => rfl)
  have er : ∀ k : Fin 512, ridx_main_v4 (ix3 b s h) k = ix2 k h := fun k => funext fun a => Fin.ext (by
    match a with | ⟨0, _⟩ => rfl | ⟨1, _⟩ => rfl)
  have eb : idx_main_v5 (idx_main_v6 (ix3 b s h)) = ix1 h := funext fun a => Fin.ext (by
    match a with | ⟨0, _⟩ => rfl)
  simp only [el, er, eb, Ideal.addf_def]
  rfl

/-- The value layer at (b, s, h). -/
theorem proj_v (x : (⟨S8x2048x512, .f32⟩ : BufTy).Contents (Elt Ideal)) (W : (⟨S512x512, .f32⟩ : BufTy).Contents (Elt Ideal))
    (β : (⟨S512, .f32⟩ : BufTy).Contents (Elt Ideal)) (b : Fin 8) (s : Fin 2048) (h : Fin 512) :
    val_main_v11 (F := Ideal) x W β (ix3 b s h)
      = linRow (fun f => x (ix3 b s f)) (fun f h' => W (ix2 f h')) (fun h' => β (ix1 h')) h := by
  rw [val_main_v11_apply, val_main_v8_apply, val_main_v10_apply, val_main_v9_apply]
  have el : ∀ k : Fin 512, lidx_main_v8 (ix3 b s h) k = ix3 b s k := fun k => funext fun a => Fin.ext (by
    match a with | ⟨0, _⟩ => rfl | ⟨1, _⟩ => rfl | ⟨2, _⟩ => rfl)
  have er : ∀ k : Fin 512, ridx_main_v8 (ix3 b s h) k = ix2 k h := fun k => funext fun a => Fin.ext (by
    match a with | ⟨0, _⟩ => rfl | ⟨1, _⟩ => rfl)
  have eb : idx_main_v9 (idx_main_v10 (ix3 b s h)) = ix1 h := funext fun a => Fin.ext (by
    match a with | ⟨0, _⟩ => rfl)
  simp only [el, er, eb, Ideal.addf_def]
  rfl

/-! ## The scaled scores -/

/-- The scores at (b, t, s): the query row of position t against the key row of position s, the contracted sum
    multiplied by 1/4. -/
theorem scores_apply (x0 x1 : (⟨S8x2048x512, .f32⟩ : BufTy).Contents (Elt Ideal)) (x3 : (⟨S512x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) (b : Fin 8) (t s : Fin 2048) :
    val_main_v14 (F := Ideal) x0 x1 x3 x4 x5 x6 (ix3 b t s)
      = energyRow (linRow (fun f => x0 (ix3 b t f)) (fun f h => x3 (ix2 f h)) (fun h => x4 (ix1 h)))
          (fun s' => linRow (fun f => x1 (ix3 b s' f)) (fun f h => x5 (ix2 f h)) (fun h => x6 (ix1 h))) s := by
  rw [val_main_v14_apply, val_main_v12_apply, val_main_v13_apply, val_main_cst_apply]
  have el : ∀ k : Fin 512, lidx_main_v12 (ix3 b t s) k = ix3 b t k := fun k => funext fun a => Fin.ext (by
    match a with | ⟨0, _⟩ => rfl | ⟨1, _⟩ => rfl | ⟨2, _⟩ => rfl)
  have er : ∀ k : Fin 512, ridx_main_v12 (ix3 b t s) k = ix3 b s k := fun k => funext fun a => Fin.ext (by
    match a with | ⟨0, _⟩ => rfl | ⟨1, _⟩ => rfl | ⟨2, _⟩ => rfl)
  simp only [el, er, proj_q, proj_k, Ideal.mulf_def, Ideal.ofBits_def]
  rfl

/-! ## The row maximum -/

/-- The index of the scores that drops to (b, t) with the last coordinate s inserted is (b, t, s). -/
theorem lift_row (hr : S8x2048x2048.Reduces [2] S8x2048) (b : Fin 8) (t s : Fin 2048) :
    hr.lift (ix2 b t) s = ix3 b t s :=
  funext fun a => Fin.ext (by match a with | ⟨0, _⟩ => rfl | ⟨1, _⟩ => rfl | ⟨2, _⟩ => rfl)

/-- The reduction with maximum over the last axis, from -∞, at (b, t): the maximum of the row of scores. -/
theorem rowmax_apply (x0 x1 : (⟨S8x2048x512, .f32⟩ : BufTy).Contents (Elt Ideal)) (x3 : (⟨S512x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) (b : Fin 8) (t : Fin 2048) :
    val_main_v15 (F := Ideal) x0 x1 x3 x4 x5 x6 (ix2 b t)
      = rowMax (fun s => val_main_v14 (F := Ideal) x0 x1 x3 x4 x5 x6 (ix3 b t s)) := by
  unfold val_main_v15
  generalize val_main_v14 (F := Ideal) x0 x1 x3 x4 x5 x6 = y
  have hr : S8x2048x2048.Reduces [2] S8x2048 := by decide
  refine (Host.reduce_eq_fold_single (FloatOps.maximumf (F := Ideal) (φ := .f32)) y (val_main_cst_0 (F := Ideal))
    reducesTo_S8x2048x2048_S8x2048_d2 hr h_S_ (ix2 b t)).trans ?_
  have ey : (y ∘ hr.lift (ix2 b t)) = fun s : Fin 2048 => y (ix3 b t s) := funext fun s => congrArg y (lift_row hr b t s)
  rw [ey]
  rfl

/-- The maximum taken once more with -∞, at (b, t): still the maximum of the row of scores. -/
theorem max_apply (x0 x1 : (⟨S8x2048x512, .f32⟩ : BufTy).Contents (Elt Ideal)) (x3 : (⟨S512x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) (b : Fin 8) (t : Fin 2048) :
    val_main_v17 (F := Ideal) x0 x1 x3 x4 x5 x6 (ix2 b t)
      = rowMax (fun s => val_main_v14 (F := Ideal) x0 x1 x3 x4 x5 x6 (ix3 b t s)) := by
  rw [val_main_v17_apply, val_main_v16_apply, val_main_cst_1_apply, rowmax_apply]
  exact max_negInf_rowMax _

/-! ## The softmax of the row -/

/-- The exponential of a score minus its row's maximum, at (b, t, s). -/
theorem expo_apply (x0 x1 : (⟨S8x2048x512, .f32⟩ : BufTy).Contents (Elt Ideal)) (x3 : (⟨S512x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) (b : Fin 8) (t s : Fin 2048) :
    val_main_v21 (F := Ideal) x0 x1 x3 x4 x5 x6 (ix3 b t s)
      = Ideal.exp (val_main_v14 (F := Ideal) x0 x1 x3 x4 x5 x6 (ix3 b t s)
          - rowMax (fun s' => val_main_v14 (F := Ideal) x0 x1 x3 x4 x5 x6 (ix3 b t s'))) := by
  rw [val_main_v21_apply, val_main_v20_apply, val_main_v19_apply, val_main_v18_apply]
  have e : idx_main_v18 (idx_main_v19 (ix3 b t s)) = ix2 b t := funext fun a => Fin.ext (by
    match a with | ⟨0, _⟩ => rfl | ⟨1, _⟩ => rfl)
  rw [e, max_apply]
  rfl

/-- The sum of a row's exponentials, from the zero word, at (b, t). -/
theorem denom_apply (x0 x1 : (⟨S8x2048x512, .f32⟩ : BufTy).Contents (Elt Ideal)) (x3 : (⟨S512x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) (b : Fin 8) (t : Fin 2048) :
    val_main_v22 (F := Ideal) x0 x1 x3 x4 x5 x6 (ix2 b t)
      = ∑ s : Fin 2048, val_main_v21 (F := Ideal) x0 x1 x3 x4 x5 x6 (ix3 b t s) := by
  rw [val_main_v22_apply, val_main_cst_2_apply]
  have e : ∀ k : Fin 2048, idx_main_v22 (ix2 b t) k = ix3 b t k := fun k => funext fun a => Fin.ext (by
    match a with | ⟨0, _⟩ => rfl | ⟨1, _⟩ => rfl | ⟨2, _⟩ => rfl)
  simp only [e, Ideal.ofBits_def, Ideal.ofBits_zero_f32, zero_add]

/-- The softmax weight at (b, t, s). -/
theorem soft_apply (x0 x1 : (⟨S8x2048x512, .f32⟩ : BufTy).Contents (Elt Ideal)) (x3 : (⟨S512x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) (b : Fin 8) (t s : Fin 2048) :
    val_main_v25 (F := Ideal) x0 x1 x3 x4 x5 x6 (ix3 b t s)
      = soft (fun s' => val_main_v14 (F := Ideal) x0 x1 x3 x4 x5 x6 (ix3 b t s')) s := by
  rw [val_main_v25_apply, val_main_v24_apply, val_main_v23_apply]
  have e : idx_main_v23 (idx_main_v24 (ix3 b t s)) = ix2 b t := funext fun a => Fin.ext (by
    match a with | ⟨0, _⟩ => rfl | ⟨1, _⟩ => rfl)
  rw [e, denom_apply]
  simp only [expo_apply, Ideal.hostDivf_def]
  rfl

/-! ## The whole result -/

/-- The reference's result is the specification. -/
theorem ref_eq (x0 x1 x2 : (⟨Cert.ReferenceIdeal.S8x2048x512, .f32⟩ : BufTy).Contents (Elt Ideal)) (x3 : (⟨Cert.ReferenceIdeal.S512x512, .f32⟩ : BufTy).Contents (Elt Ideal)) (x4 : (⟨Cert.ReferenceIdeal.S512, .f32⟩ : BufTy).Contents (Elt Ideal)) (x5 : (⟨Cert.ReferenceIdeal.S512x512, .f32⟩ : BufTy).Contents (Elt Ideal)) (x6 : (⟨Cert.ReferenceIdeal.S512, .f32⟩ : BufTy).Contents (Elt Ideal)) (x7 : (⟨Cert.ReferenceIdeal.S512x512, .f32⟩ : BufTy).Contents (Elt Ideal)) (x8 : (⟨Cert.ReferenceIdeal.S512, .f32⟩ : BufTy).Contents (Elt Ideal)) :
    Cert.ReferenceIdeal.Read.val_main_v26 (F := Ideal) x0 x1 x2 x3 x4 x5 x6 x7 x8 = Cert.AttnSpec.G x0 x1 x2 x3 x4 x5 x6 x7 x8 := by
  funext i
  obtain ⟨b, t, h, rfl⟩ : ∃ (b : Fin 8) (t : Fin 2048) (h : Fin 512), i = ix3 b t h := ⟨i 0, i 1, i 2, eq_ix3 i⟩
  rw [val_main_v26_apply]
  have el : ∀ k : Fin 2048, lidx_main_v26 (ix3 b t h) k = ix3 b t k := fun k => funext fun a => Fin.ext (by
    match a with | ⟨0, _⟩ => rfl | ⟨1, _⟩ => rfl | ⟨2, _⟩ => rfl)
  have er : ∀ k : Fin 2048, ridx_main_v26 (ix3 b t h) k = ix3 b k h := fun k => funext fun a => Fin.ext (by
    match a with | ⟨0, _⟩ => rfl | ⟨1, _⟩ => rfl | ⟨2, _⟩ => rfl)
  simp only [el, er, soft_apply, proj_v, scores_apply]
  rfl

end Cert.RefSpec
-- ==== Proof.lean ====
/-
  Fused attention against its jnp reference, on the extended reals.

  Both programs take a query, key and value array `[8, 2048, 512]` with three `[512, 512]` weights and three `[512]`
  biases and return, for each batch and query position, the softmax-weighted sum of the projected value rows, the
  scores being the projected query row against the projected key rows scaled by 1/4. On the extended reals a change
  of float format is the identity, so the two differ in arrangement only:

    * the kernel walks a grid of 8 batches by 4 query tiles of 512 rows; at a batch's first tile it projects the
      batch's keys and values once and keeps them for the other three tiles; the reference projects everything at once;
    * the kernel scales each query entry by 1/4 before contracting with a key row, the reference scales the contracted
      sum. A non-negative finite factor moves across a finite sum of extended reals even at infinite summands, so the
      two scores agree at every input, finite or not: the precondition is not used;
    * the reference takes the maximum of a row's maximum with `-∞` once more, which changes nothing.

  The specification `Cert.AttnSpec.G` states the common result index by index. The kernel's result array is `G` of
  the arguments: every grid point's block is the restriction of `G`, by induction over the points for what the kept
  projections hold, and the 32 blocks cover the array. The reference's result is `G` stage by stage. The three frames
  are the generated runs, and the kernel's idealization rewrote nothing.
-/
import proofs.«106865_j1803886264320_2_alg».proof.Defs
import proofs.«106865_j1803886264320_2_alg».proof.Proof.Gen.Kernel
import proofs.«106865_j1803886264320_2_alg».proof.Proof.Gen.Kernel.Frame
import proofs.«106865_j1803886264320_2_alg».proof.Proof.Gen.KernelIdeal
import proofs.«106865_j1803886264320_2_alg».proof.Proof.Gen.KernelIdeal.Frame
import proofs.«106865_j1803886264320_2_alg».proof.Proof.Gen.KernelIdeal.Value
import proofs.«106865_j1803886264320_2_alg».proof.Proof.Gen.ReferenceIdeal
import proofs.«106865_j1803886264320_2_alg».proof.Proof.Gen.ReferenceIdeal.Run
import proofs.«106865_j1803886264320_2_alg».proof.Proof.Gen.ReferenceIdeal.Read
import proofs.«106865_j1803886264320_2_alg».proof.Proof.Gen.Pre_finite_inputs
import proofs.«106865_j1803886264320_2_alg».proof.Proof.KernelResult
import proofs.«106865_j1803886264320_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the nine arguments both programs end with the specification of those arguments. -/
theorem algebraic : Cert.algebraic_KernelIdeal_ReferenceIdeal := by
  intro m ρ m' ρ' _ hagree
  refine ⟨fun c => Cert.KernelIdeal.Result.spec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v26_eq, Cert.RefSpec.ref_eq, h0, h1, h2, h3, h4, h5, h6, h7, h8]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
